-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x256 : Shape := ⟨2, ![128, 256]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x256 : S_.BroadcastsInDim S128x256 (![] : Fin 0 → Fin S128x256.rank)
  reducesTo_S128x256_S_d0_1 : S128x256.ReducesTo [0, 1] S_

variable [Facts]

def fn {F : FTy → Type} [FloatOps F] (main_arg0 : FVec F S10000x10000 .f32) (main_arg1 : FVec F S10000x128 .f32) (main_arg2 : FVec F S128x256 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  main_v13
-- ==== Kernel.lean ====
abbrev S10000x10000 : Shape := ⟨2, ![10000, 10000]⟩
abbrev S10000x128 : Shape := ⟨2, ![10000, 128]⟩
abbrev S128x256 : Shape := ⟨2, ![128, 256]⟩
abbrev S256x128 : Shape := ⟨2, ![256, 128]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩
abbrev S128x128 : Shape := ⟨2, ![128, 128]⟩

abbrev nBuf : Space → Nat
  | .hbm => 5
  | .vmem => 8
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x256, .f32⟩
  | .hbm, ⟨3, _⟩ => ⟨S256x128, .f32⟩
  | .hbm, ⟨4, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S400x128, .f32⟩
  | .local _ .vmem, ⟨4, _⟩ => ⟨S400x128, .f32⟩
  | .local _ .vmem, ⟨5, _⟩ => ⟨S256x128, .f32⟩
  | .local _ .vmem, ⟨6, _⟩ => ⟨S400x128, .f32⟩
  | .local _ .vmem, ⟨7, _⟩ => ⟨S400x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x256_S256x128_1_0 : S128x256.Transposes [1, 0] S256x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  reduces_S400x10000_S400 : S400x10000.Reduces [1] S400
  shapeCasts_S400_S400x1 : S400.ShapeCasts S400x1
  broadcasts_S400x1_S400x128 : S400x1.Broadcasts S400x128
  inb_S400x128_S400x128_0_0 : ∀ a, (![0, 0] : Fin 2 → Nat) a + S400x128.size a ≤ S400x128.size a
  h_S400x128 : 0 < S400x128.numel
  inb_S256x128_S128x128_0_0 : ∀ a, (![0, 0] : Fin 2 → Nat) a + S128x128.size a ≤ S256x128.size a
  h_S128x128 : 0 < S128x128.numel
  shapeCasts_S128x128_S128x128 : S128x128.ShapeCasts S128x128
  inb_S256x128_S128x128_128_0 : ∀ a, (![128, 0] : Fin 2 → Nat) a + S128x128.size a ≤ S256x128.size a
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x256 : Shape := ⟨2, ![128, 256]⟩
abbrev S_ : Shape := ⟨0, ![]⟩
abbrev S10000 : Shape := ⟨1, ![10000]⟩
abbrev S10000x1 : Shape := ⟨2, ![10000, 1]⟩
abbrev S10000x256 : Shape := ⟨2, ![10000, 256]⟩
abbrev S256x128 : Shape := ⟨2, ![256, 128]⟩

abbrev nBuf : Space → Nat
  | .hbm => 15
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x256, .f32⟩
  | .hbm, ⟨3, _⟩ => ⟨S10000x128, .f32⟩
  | .hbm, ⟨4, _⟩ => ⟨S_, .f32⟩
  | .hbm, ⟨5, _⟩ => ⟨S10000, .f32⟩
  | .hbm, ⟨6, _⟩ => ⟨S10000x1, .f32⟩
  | .hbm, ⟨7, _⟩ => ⟨S_, .f32⟩
  | .hbm, ⟨8, _⟩ => ⟨S10000x1, .f32⟩
  | .hbm, ⟨9, _⟩ => ⟨S10000x1, .f32⟩
  | .hbm, ⟨10, _⟩ => ⟨S10000x128, .f32⟩
  | .hbm, ⟨11, _⟩ => ⟨S10000x128, .f32⟩
  | .hbm, ⟨12, _⟩ => ⟨S10000x256, .f32⟩
  | .hbm, ⟨13, _⟩ => ⟨S256x128, .f32⟩
  | .hbm, ⟨14, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  shapeCasts_S10000_S10000x1 : S10000.ShapeCasts S10000x1
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  transposes_S128x256_S256x128_1_0 : S128x256.Transposes [1, 0] S256x128
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.LibSharedArray.lean ====
/-
  Two input windows of one pallas_call that read the SAME array (the same operand handed in through two in_specs).

  The launch hands a pipeline the distinct buffers behind its windows' arrays, each whole at the full share. The
  pipeline's proof data wants one points-to per WINDOW. When exactly two windows w₁ ≠ w₂ sit on one buffer and the
  array map is otherwise injective, the buffer's full share is cut in its two halves: w₁ holds the left half, w₂ the
  right half, both at the same contents; every other window holds its own buffer at the full share. Both directions
  are proved (the split at region entry, the join at region exit, where both windows still hold the same contents
  because inputs are never written back).
-/
import Idealize.ShloMosaic.Lib.Pipeline.Launch
import Idealize.ShloMosaic.Lib.Pipeline.Regions

noncomputable section

namespace Idealize.ShloMosaic.Pipeline

open Idealize.SL
open Idealize.SL.BI (sProp bigSep bigSep_congr bigSep_erase bigSep_univ_split bigSep_image_of_injOn)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type} {Λ₀ : SL.Sem.Labels}
variable {Ix : Type} [DecidableEq Ix] {Name : Type} [DecidableEq Name] {U : Type} [URA U] {Lvl : Type}

local notation "𝕄" => MT nD τ sig Ix Val Name U Lvl

/-- One buffer whole at share `q` at contents `V b`, as a function of the buffer: equal buffers give equal assertions. -/
theorem wholeAt_congr (c : Dev nD) (V : (b : Ref sig .tc) → Buf Val ((c.tc : Thread nD τ).loc b)) (q : PosShare TreeShare)
    {b₁ b₂ : Ref sig .tc} (h : b₁ = b₂) :
    ((((c.tc : Thread nD τ).loc b₁) ↦{q} V b₁ : sProp 𝕄)) = (((c.tc : Thread nD τ).loc b₂) ↦{q} V b₂ : sProp 𝕄) := by
  subst h; rfl

/-- The distinct buffers behind the windows' arrays, whole at the full share at contents `V`, are exactly the proof
    data's per-window arrays at the same contents, when windows `w₁` and `w₂` share a buffer (held in halves) and all
    the other windows have buffers of their own (held whole). -/
theorem arrBufs_arrays_of_pair {cfg : Cfg sig Λ₀} {c : Dev nD} (dat : Dat τ Val Ix Name U Lvl cfg c)
    (harr : ∀ w, (cfg.spec w).arr.IsWhole) (w₁ w₂ : Fin cfg.W) (hne : w₁ ≠ w₂)
    (heq : arrRef cfg.spec w₁ = arrRef cfg.spec w₂)
    (hinj : Set.InjOn (arrRef cfg.spec) ((Finset.univ.erase w₂ : Finset (Fin cfg.W)) : Set (Fin cfg.W)))
    (hq₁ : dat.share w₁ = fullShare.left) (hq₂ : dat.share w₂ = fullShare.right)
    (hq : ∀ w, w ≠ w₁ → w ≠ w₂ → dat.share w = fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (arrBufs cfg.spec c V : sProp 𝕄) ⊣⊢ dat.arrays F := by
  classical
  have himg : (Finset.univ.image (arrRef cfg.spec) : Finset (Ref sig .tc)) = (Finset.univ.erase w₂).image (arrRef cfg.spec) := by
    ext b; constructor
    · intro hb
      obtain ⟨w, -, rfl⟩ := Finset.mem_image.mp hb
      by_cases hw : w = w₂
      · subst hw; exact Finset.mem_image.mpr ⟨w₁, Finset.mem_erase.mpr ⟨hne, Finset.mem_univ _⟩, heq⟩
      · exact Finset.mem_image.mpr ⟨w, Finset.mem_erase.mpr ⟨hw, Finset.mem_univ _⟩, rfl⟩
    · intro hb
      obtain ⟨w, -, rfl⟩ := Finset.mem_image.mp hb
      exact Finset.mem_image.mpr ⟨w, Finset.mem_univ _, rfl⟩
  have hw₁ : w₁ ∈ (Finset.univ.erase w₂ : Finset (Fin cfg.W)) := Finset.mem_erase.mpr ⟨hne, Finset.mem_univ _⟩
  -- the right-hand side, window by window over the buffers' references
  have hR : dat.arrays F = bigSep Finset.univ fun w =>
      ((((c.tc : Thread nD τ).loc (arrRef cfg.spec w)) ↦{dat.share w} V (arrRef cfg.spec w) : sProp 𝕄)) := by
    unfold Dat.arrays
    exact bigSep_congr fun w _ => by rw [(harr w).set_eq_univ, hF]
  rw [hR]; unfold arrBufs
  rw [himg, bigSep_image_of_injOn hinj, bigSep_erase hw₁, bigSep_univ_split w₂, bigSep_erase hw₁]
  have hrest : (bigSep ((Finset.univ.erase w₂).erase w₁) fun w =>
        ((((c.tc : Thread nD τ).loc (arrRef cfg.spec w)) ↦{fullShare} V (arrRef cfg.spec w) : sProp 𝕄)))
      = bigSep ((Finset.univ.erase w₂).erase w₁) fun w =>
        ((((c.tc : Thread nD τ).loc (arrRef cfg.spec w)) ↦{dat.share w} V (arrRef cfg.spec w) : sProp 𝕄)) :=
    bigSep_congr fun w hw => by
      rw [hq w (Finset.ne_of_mem_erase hw) (Finset.ne_of_mem_erase (Finset.mem_of_mem_erase hw))]
  rw [hrest, hq₁, hq₂, ← wholeAt_congr c V fullShare.right heq]
  have hsh : ((((c.tc : Thread nD τ).loc (arrRef cfg.spec w₁)) ↦{fullShare} V (arrRef cfg.spec w₁) : sProp 𝕄))
      ⊣⊢ iprop(((((c.tc : Thread nD τ).loc (arrRef cfg.spec w₁)) ↦{fullShare.left} V (arrRef cfg.spec w₁) : sProp 𝕄))
        ∗ (((c.tc : Thread nD τ).loc (arrRef cfg.spec w₁)) ↦{fullShare.right} V (arrRef cfg.spec w₁) : sProp 𝕄)) :=
    pointsTo_share (PosShare.mem_left_op_right fullShare)
  constructor
  · exact ((sep_mono (hsh.1.trans sep_comm.1) .rfl).trans sep_assoc.1)
  · exact (sep_assoc.2.trans (sep_mono (sep_comm.1.trans hsh.2) .rfl))

/-- ENTRY of a region whose windows `w₁`, `w₂` read one array: a core's unscoped buffers at contents `V` are the
    pipeline's arrays at the proof data's entry contents (read off `V`) and the unscoped rest. -/
theorem arrays_of_unscopedBufs_pair {cfg : Cfg sig Λ₀} {c : Dev nD} (dat : Dat τ Val Ix Name U Lvl cfg c)
    (hunscoped : ∀ w, (arrRef cfg.spec w).isScoped = false)
    (harr : ∀ w, (cfg.spec w).arr.IsWhole) (w₁ w₂ : Fin cfg.W) (hne : w₁ ≠ w₂)
    (heq : arrRef cfg.spec w₁ = arrRef cfg.spec w₂)
    (hinj : Set.InjOn (arrRef cfg.spec) ((Finset.univ.erase w₂ : Finset (Fin cfg.W)) : Set (Fin cfg.W)))
    (hq₁ : dat.share w₁ = fullShare.left) (hq₂ : dat.share w₂ = fullShare.right)
    (hq : ∀ w, w ≠ w₁ → w ≠ w₂ → dat.share w = fullShare)
    (V : (b : Ref sig .tc) → Buf Val ((c.tc : Thread nD τ).loc b))
    (hA : ∀ w, dat.A w = V (arrRef cfg.spec w)) :
    (unscopedBufs c V : sProp 𝕄) ⊢ iprop(dat.arrays (dat.arrAt · 0) ∗ unscopedRest cfg.spec c V) := by
  rw [unscopedBufs_split₀ (fun _ : Unit => cfg) () hunscoped c V]
  exact sep_mono (arrBufs_arrays_of_pair dat harr w₁ w₂ hne heq hinj hq₁ hq₂ hq V _
    (fun w => by rw [show dat.arrAt w 0 = dat.A w from rfl, hA])).1 .rfl

/-- EXIT of such a region: the arrays at contents `F` and the unscoped rest at `V` are the core's unscoped buffers at
    any valuation `V'` that has the arrays at `F` and agrees with `V` off them. The two windows on one buffer hold the
    same contents (both are `V'` at that buffer), so their halves join. -/
theorem unscopedBufs_of_arrays_pair {cfg : Cfg sig Λ₀} {c : Dev nD} (dat : Dat τ Val Ix Name U Lvl cfg c)
    (hunscoped : ∀ w, (arrRef cfg.spec w).isScoped = false)
    (harr : ∀ w, (cfg.spec w).arr.IsWhole) (w₁ w₂ : Fin cfg.W) (hne : w₁ ≠ w₂)
    (heq : arrRef cfg.spec w₁ = arrRef cfg.spec w₂)
    (hinj : Set.InjOn (arrRef cfg.spec) ((Finset.univ.erase w₂ : Finset (Fin cfg.W)) : Set (Fin cfg.W)))
    (hq₁ : dat.share w₁ = fullShare.left) (hq₂ : dat.share w₂ = fullShare.right)
    (hq : ∀ w, w ≠ w₁ → w ≠ w₂ → dat.share w = fullShare)
    (V V' : (b : Ref sig .tc) → Buf Val ((c.tc : Thread nD τ).loc b))
    (F : (w : Fin cfg.W) → Buf Val ((cfg.spec w).arr.view.loc (c.tc : Thread nD τ)))
    (hF : ∀ w, F w = V' (arrRef cfg.spec w))
    (hrest : ∀ b, b ∉ Finset.univ.image (arrRef cfg.spec) → V' b = V b) :
    iprop(dat.arrays F ∗ unscopedRest cfg.spec c V) ⊢ (unscopedBufs c V' : sProp 𝕄) := by
  rw [unscopedBufs_split₀ (fun _ : Unit => cfg) () hunscoped c V']
  refine sep_mono (arrBufs_arrays_of_pair dat harr w₁ w₂ hne heq hinj hq₁ hq₂ hq V' F hF).2 (Entails.of_eq ?_)
  unfold unscopedRest
  exact bigSep_congr fun b hb => by rw [hrest b (Finset.mem_sdiff.mp hb).2]

end Idealize.ShloMosaic.Pipeline

end
-- ==== Proof.LibSharedFrameRest.lean ====
/-
  The run of a one-region program whose pipeline has TWO INPUT WINDOWS ON ONE ARRAY, read to the full frame post:
  besides every window's array after the run, every unscoped buffer that is no window's array ends as the region
  found it.

  The launch hands the region the distinct buffers behind the windows' arrays (the shared buffer's full share cut in
  its two halves, one per window) and, apart, the unscoped buffers no window stages. The latter bypass the region:
  they are carried beside the pipeline untouched and read back in the final state.
-/
import Idealize.ShloMosaic.Lib.Pipeline.Frame
import proofs.«162890_g154618823108_cont_week2b_1163_5_alg».proof.Proof.LibSharedArray

noncomputable section

namespace Idealize.ShloMosaic.Pipeline

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

/-- Every weakly fair execution of @main — the region alone, or host operations then the region (`hmain`) — terminates,
    and every final state has each window's array at what the proof data compute after the last write-back and every
    other unscoped buffer at its contents at the region's entry, when windows `w₁ ≠ w₂` read one array held in halves
    and every other window has an array of its own. -/
theorem θ_run_frame_pair_rest
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (w₁ w₂ : Fin (cfgs p).W) (h12 : w₁ ≠ w₂) (heq : arrRef (cfgs p).spec w₁ = arrRef (cfgs p).spec w₂)
    (hinjOn : Set.InjOn (arrRef (cfgs p).spec) ((Finset.univ.erase w₂ : Finset (Fin (cfgs p).W)) : Set (Fin (cfgs p).W)))
    (hq₁ : ∀ c, (dats p c).share w₁ = fullShare.left) (hq₂ : ∀ c, (dats p c).share w₂ = fullShare.right)
    (hq : ∀ c w, w ≠ w₁ → w ≠ w₂ → (dats p c).share w = fullShare)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hA : ∀ c w, (dats p c).A w = V c (arrRef (cfgs p).spec w))
    (hΦ : ∀ c t, (dats p c).Φ t = scopedRest (cfgs p).spec c) :
    θ_run (Pipeline.defs (fun q => Cfg.toPCfg (Val := Val) (cfgs q)) defs₀) (onTc main) (s₀ m g)
      (FramePost cfgs dats p V) :=
  θ_run_region_noSem_shared cfgs dats () hinj p hw emb₁ defs₀ 𝒱₀ m g main hbody hne harr hstage howed
    (initOf (cells cfgs hinj) (launchToks cfgs hinj)) (BI.Entails.refl _) V hmain
    (fun c => (arrBufs_arrays_of_pair (dats p c) harr w₁ w₂ h12 heq hinjOn (hq₁ c) (hq₂ c) (hq c) (V c) _
      (fun w => by rw [show (dats p c).arrAt w 0 = (dats p c).A w from rfl, hA])).1)
    (X := fun _ => iprop(emp)) (Y := fun _ => iprop(emp))
    (Z := fun c => unscopedRest (Ix := Unit) (Name := ℕ) (U := UR sig nD τ) (Lvl := ℕ) (cfgs p).spec c (V c))
    (hX := fun c => by
      iintro H; isplitr; · iempintro
      iexact H)
    (hin := fun c => by rw [hΦ]; iintro ⟨-, H⟩; iexact H)
    (hout := fun c => by rw [hΦ]; iintro H; isplitr; · iempintro
                         iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun _ h c => ⟨(h c).1, (h c).2⟩)

end Idealize.ShloMosaic.Pipeline

end
-- ==== Proof.KernelBody.lean ====
/-
  The frame of the fused layer kernel: every weakly fair execution of the program terminates, nothing faults, and the
  three argument arrays end as they were.

  The call has five windows. Window 0 is a block of 400 rows of the adjacency matrix, window 1 the whole feature
  matrix, window 2 the block of 400 rows of the SAME feature matrix, window 3 the transposed weight matrix (which a host
  operation writes before the call), window 4 the block of 400 rows of the result. Windows 1 and 2 read one array, so the
  array's full share is held in two halves, one per window; all other windows hold their arrays whole. The weight
  matrix itself is no window's array: it passes by the region untouched.

  The body loads its four input blocks whole, the weight block as its upper and its lower half, loads the result
  buffer (a value it never uses) and stores one value covering the result buffer. So after the body each input buffer
  holds its block as before, and the result buffer holds the stored value, a function of the input blocks.
-/
import proofs.«162890_g154618823108_cont_week2b_1163_5_alg».proof.Proof.Gen.Kernel.Launch
import proofs.«162890_g154618823108_cont_week2b_1163_5_alg».proof.Proof.Gen.Kernel.Skeleton
import proofs.«162890_g154618823108_cont_week2b_1163_5_alg».proof.Proof.Gen.Kernel.Points
import proofs.«162890_g154618823108_cont_week2b_1163_5_alg».proof.Proof.LibSharedFrameRest
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers of core `c` when the region is entered: the launch contents after the one host operation (the
    transposition of the weight matrix). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes none of the three arguments: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    exact StableHlo.devRef_ne_of_ne (by decide)))

/-! ## The windows' blocks -/

/-- The block of window `w` at grid point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds the window's block at every point, whether the block was fetched
    at that point or stayed from the point before (its index then has not moved), provided the body leaves the block in
    place. One statement per input window: the block's index type computes only at a literal window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the result window's buffer -/

abbrev rAdj : Rect S400x10000 := Rect.unit (s := S400x10000) ![0, 0] S400x10000.size inb_S400x10000_S400x10000_0_0
abbrev rFeat : Rect S10000x128 := Rect.unit (s := S10000x128) ![0, 0] S10000x128.size inb_S10000x128_S10000x128_0_0
abbrev rRows : Rect S400x128 := Rect.unit (s := S400x128) ![0, 0] S400x128.size inb_S400x128_S400x128_0_0
abbrev rUpper : Rect S256x128 := Rect.unit (s := S256x128) ![0, 0] S128x128.size inb_S256x128_S128x128_0_0
abbrev rLower : Rect S256x128 := Rect.unit (s := S256x128) ![128, 0] S128x128.size inb_S256x128_S128x128_128_0

/-- The result buffer after the body, from the four input blocks: the one stored value, over the whole buffer. -/
def out4 (x0 : Vec F S400x10000 .f32) (x1 : Vec F S10000x128 .f32) (x2 : Vec F S400x128 .f32) (x3 : Vec F S256x128 .f32) : Vec F S400x128 .f32 :=
  View.canon [⟨rRows, k0_pay1 (View.ld x0 rAdj) (View.ld x1 rFeat) (View.ld x2 rRows) (View.ld x3 rUpper) (View.ld x3 rLower)⟩]

/-- The one store covers the buffer. -/
theorem cover4 (p0 : Vec F S400x128 .f32) (y : S400x128.Idx) :
    ∃ pc ∈ ([⟨rRows, p0⟩] : List (View.Piece (Elt F) S400x128 .f32)), y ∈ pc.1.set :=
  View.cover_of_tiled [⟨rRows, p0⟩] S400x128.size (by rfl) y

/-! ## The body's triple -/

set_option maxHeartbeats 1000000 in
/-- The body on whole staging buffers, the four inputs' at read contents and the result's at anything, runs to the
    continuation with the inputs' buffers as they were and the result's at `out4` of the inputs. -/
theorem sound_kernel (c : Dev nD) (E : Set ℕ) (i : grid0.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S256x128 .f32) (harg4 : arg4.IsWhole)
    (arg5 : Memref sig .tc .vmem S400x128 .f32) (harg5 : arg5.IsWhole)
    (x0 : Vec F S400x10000 .f32) (x1 : Vec F S10000x128 .f32) (x2 : Vec F S400x128 .f32) (x3 : Vec F S256x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2 x3)) -∗ K ⟨⟩))
      ⊢ wp frame (wpE (defs₀ (F := F)) Variants.none c none) E (cc0__sage_fused_kernel i arg1 harg1 arg2 harg2 arg3 harg3 arg4 harg4 arg5 harg5) K := by
  simp only [cc0__sage_fused_kernel_eq_skeleton]; unfold cc0__sage_fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

end Cert.Kernel.Region

end
-- ==== Proof.KernelFrame.lean ====
/-
  The run of the fused layer program and its frame.

  The proof data of the one pipeline: the arrays as the region finds them; after the body at a grid point each input
  buffer at its block and the result buffer at the stored value of the four input blocks; the invariant is the core's
  scoped buffers that are no staging buffer (there is none: the kernel keeps nothing between points); nothing owed.
  The feature matrix is read by windows 1 and 2: window 1 holds the left half of its full share, window 2 the right
  half; windows 0 and 3 hold their arrays whole.
-/
import proofs.«162890_g154618823108_cont_week2b_1163_5_alg».proof.Proof.KernelBody

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
  Φ _ := Pipeline.scopedRest spec0 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = out4 (iblk m c 0 t) (iblk m c 1 t) (iblk m c 2 t) (iblk m c 3 t) := by dsimp only [dats]

/-- Each input's current staging buffer holds its block at every point. -/
theorem before_0 (c : Dev nD) (t : Fin cfg0.N) (d) : (dats m 0 c).before 0 t d = iblk m c 0 t :=
  before_in0_of m (dats m 0 c) (A_eq m c 0) (after_0 m c) t d
theorem before_1 (c : Dev nD) (t : Fin cfg0.N) (d) : (dats m 0 c).before 1 t d = iblk m c 1 t :=
  before_in1_of m (dats m 0 c) (A_eq m c 1) (after_1 m c) t d
theorem before_2 (c : Dev nD) (t : Fin cfg0.N) (d) : (dats m 0 c).before 2 t d = iblk m c 2 t :=
  before_in2_of m (dats m 0 c) (A_eq m c 2) (after_2 m c) t d
theorem before_3 (c : Dev nD) (t : Fin cfg0.N) (d) : (dats m 0 c).before 3 t d = iblk m c 3 t :=
  before_in3_of m (dats m 0 c) (A_eq m c 3) (after_3 m c) t d

/-! ## The shares -/

theorem arr_shared : Pipeline.arrRef spec0 (1 : Fin 5) = Pipeline.arrRef spec0 (2 : Fin 5) := rfl

/-- Apart from window 2, the windows' arrays are pairwise distinct buffers. -/
theorem arr_injOn : Set.InjOn (Pipeline.arrRef spec0) ((Finset.univ.erase (2 : Fin 5) : Finset (Fin 5)) : Set (Fin 5)) := by
  intro a ha b hb
  have ha' : a ≠ 2 := Finset.ne_of_mem_erase (Finset.mem_coe.mp ha)
  have hb' : b ≠ 2 := Finset.ne_of_mem_erase (Finset.mem_coe.mp hb)
  clear ha hb
  revert a b
  decide

theorem share_1 (c : Dev nD) : (dats m 0 c).share 1 = fullShare.left := rfl
theorem share_2 (c : Dev nD) : (dats m 0 c).share 2 = fullShare.right := rfl
theorem share_rest (c : Dev nD) (w : Fin cfg0.W) (h1 : w ≠ 1) (h2 : w ≠ 2) : (dats m 0 c).share w = fullShare := by
  match w, h1, h2 with
  | ⟨0, _⟩, _, _ => rfl
  | ⟨1, _⟩, h1, _ => exact absurd rfl h1
  | ⟨2, _⟩, _, h2 => exact absurd rfl h2
  | ⟨3, _⟩, _, _ => rfl
  | ⟨4, _⟩, _, _ => rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame_pair_rest cfgs (dats m) (0 : Fin 1) defs₀ Variants.none cellOf_inj winFacts₀0 block_pos0 arr_whole0 stage_whole0
    m ρ main (fun c => (body_obligation m c).loose) (fun _ _ => rfl)
    (1 : Fin 5) (2 : Fin 5) (by decide) arr_shared arr_injOn (share_1 m) (share_2 m) (share_rest m)
    (V m) (hmain m Variants.none) (A_eq m) (fun _ _ => rfl)

/-- The three arguments end as launched: the adjacency matrix and the feature matrix are staged by input windows and
    never written back, the weight matrix is no window's array and bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩) (run_main m ρ)

end Cert.Kernel.Region

end
-- ==== Proof.KernelIdealBody.lean ====
/-
  The frame of the fused layer kernel: every weakly fair execution of the program terminates, nothing faults, and the
  three argument arrays end as they were.

  The call has five windows. Window 0 is a block of 400 rows of the adjacency matrix, window 1 the whole feature
  matrix, window 2 the block of 400 rows of the SAME feature matrix, window 3 the transposed weight matrix (which a host
  operation writes before the call), window 4 the block of 400 rows of the result. Windows 1 and 2 read one array, so the
  array's full share is held in two halves, one per window; all other windows hold their arrays whole. The weight
  matrix itself is no window's array: it passes by the region untouched.

  The body loads its four input blocks whole, the weight block as its upper and its lower half, loads the result
  buffer (a value it never uses) and stores one value covering the result buffer. So after the body each input buffer
  holds its block as before, and the result buffer holds the stored value, a function of the input blocks.
-/
import proofs.«162890_g154618823108_cont_week2b_1163_5_alg».proof.Proof.Gen.KernelIdeal.Launch
import proofs.«162890_g154618823108_cont_week2b_1163_5_alg».proof.Proof.Gen.KernelIdeal.Skeleton
import proofs.«162890_g154618823108_cont_week2b_1163_5_alg».proof.Proof.Gen.KernelIdeal.Points
import proofs.«162890_g154618823108_cont_week2b_1163_5_alg».proof.Proof.LibSharedFrameRest
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers of core `c` when the region is entered: the launch contents after the one host operation (the
    transposition of the weight matrix). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes none of the three arguments: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    exact StableHlo.devRef_ne_of_ne (by decide)))

/-! ## The windows' blocks -/

/-- The block of window `w` at grid point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds the window's block at every point, whether the block was fetched
    at that point or stayed from the point before (its index then has not moved), provided the body leaves the block in
    place. One statement per input window: the block's index type computes only at a literal window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the result window's buffer -/

abbrev rAdj : Rect S400x10000 := Rect.unit (s := S400x10000) ![0, 0] S400x10000.size inb_S400x10000_S400x10000_0_0
abbrev rFeat : Rect S10000x128 := Rect.unit (s := S10000x128) ![0, 0] S10000x128.size inb_S10000x128_S10000x128_0_0
abbrev rRows : Rect S400x128 := Rect.unit (s := S400x128) ![0, 0] S400x128.size inb_S400x128_S400x128_0_0
abbrev rUpper : Rect S256x128 := Rect.unit (s := S256x128) ![0, 0] S128x128.size inb_S256x128_S128x128_0_0
abbrev rLower : Rect S256x128 := Rect.unit (s := S256x128) ![128, 0] S128x128.size inb_S256x128_S128x128_128_0

/-- The result buffer after the body, from the four input blocks: the one stored value, over the whole buffer. -/
def out4 (x0 : Vec F S400x10000 .f32) (x1 : Vec F S10000x128 .f32) (x2 : Vec F S400x128 .f32) (x3 : Vec F S256x128 .f32) : Vec F S400x128 .f32 :=
  View.canon [⟨rRows, k0_pay1 (View.ld x0 rAdj) (View.ld x1 rFeat) (View.ld x2 rRows) (View.ld x3 rUpper) (View.ld x3 rLower)⟩]

/-- The one store covers the buffer. -/
theorem cover4 (p0 : Vec F S400x128 .f32) (y : S400x128.Idx) :
    ∃ pc ∈ ([⟨rRows, p0⟩] : List (View.Piece (Elt F) S400x128 .f32)), y ∈ pc.1.set :=
  View.cover_of_tiled [⟨rRows, p0⟩] S400x128.size (by rfl) y

/-! ## The body's triple -/

set_option maxHeartbeats 1000000 in
/-- The body on whole staging buffers, the four inputs' at read contents and the result's at anything, runs to the
    continuation with the inputs' buffers as they were and the result's at `out4` of the inputs. -/
theorem sound_kernel (c : Dev nD) (E : Set ℕ) (i : grid0.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S256x128 .f32) (harg4 : arg4.IsWhole)
    (arg5 : Memref sig .tc .vmem S400x128 .f32) (harg5 : arg5.IsWhole)
    (x0 : Vec F S400x10000 .f32) (x1 : Vec F S10000x128 .f32) (x2 : Vec F S400x128 .f32) (x3 : Vec F S256x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2 x3)) -∗ K ⟨⟩))
      ⊢ wp frame (wpE (defs₀ (F := F)) Variants.none c none) E (cc0__sage_fused_kernel i arg1 harg1 arg2 harg2 arg3 harg3 arg4 harg4 arg5 harg5) K := by
  simp only [cc0__sage_fused_kernel_eq_skeleton]; unfold cc0__sage_fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

end Cert.KernelIdeal.Region

end
-- ==== Proof.KernelIdealFrame.lean ====
/-
  The run of the fused layer program and its frame.

  The proof data of the one pipeline: the arrays as the region finds them; after the body at a grid point each input
  buffer at its block and the result buffer at the stored value of the four input blocks; the invariant is the core's
  scoped buffers that are no staging buffer (there is none: the kernel keeps nothing between points); nothing owed.
  The feature matrix is read by windows 1 and 2: window 1 holds the left half of its full share, window 2 the right
  half; windows 0 and 3 hold their arrays whole.
-/
import proofs.«162890_g154618823108_cont_week2b_1163_5_alg».proof.Proof.KernelIdealBody

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
  Φ _ := Pipeline.scopedRest spec0 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = out4 (iblk m c 0 t) (iblk m c 1 t) (iblk m c 2 t) (iblk m c 3 t) := by dsimp only [dats]

/-- Each input's current staging buffer holds its block at every point. -/
theorem before_0 (c : Dev nD) (t : Fin cfg0.N) (d) : (dats m 0 c).before 0 t d = iblk m c 0 t :=
  before_in0_of m (dats m 0 c) (A_eq m c 0) (after_0 m c) t d
theorem before_1 (c : Dev nD) (t : Fin cfg0.N) (d) : (dats m 0 c).before 1 t d = iblk m c 1 t :=
  before_in1_of m (dats m 0 c) (A_eq m c 1) (after_1 m c) t d
theorem before_2 (c : Dev nD) (t : Fin cfg0.N) (d) : (dats m 0 c).before 2 t d = iblk m c 2 t :=
  before_in2_of m (dats m 0 c) (A_eq m c 2) (after_2 m c) t d
theorem before_3 (c : Dev nD) (t : Fin cfg0.N) (d) : (dats m 0 c).before 3 t d = iblk m c 3 t :=
  before_in3_of m (dats m 0 c) (A_eq m c 3) (after_3 m c) t d

/-! ## The shares -/

theorem arr_shared : Pipeline.arrRef spec0 (1 : Fin 5) = Pipeline.arrRef spec0 (2 : Fin 5) := rfl

/-- Apart from window 2, the windows' arrays are pairwise distinct buffers. -/
theorem arr_injOn : Set.InjOn (Pipeline.arrRef spec0) ((Finset.univ.erase (2 : Fin 5) : Finset (Fin 5)) : Set (Fin 5)) := by
  intro a ha b hb
  have ha' : a ≠ 2 := Finset.ne_of_mem_erase (Finset.mem_coe.mp ha)
  have hb' : b ≠ 2 := Finset.ne_of_mem_erase (Finset.mem_coe.mp hb)
  clear ha hb
  revert a b
  decide

theorem share_1 (c : Dev nD) : (dats m 0 c).share 1 = fullShare.left := rfl
theorem share_2 (c : Dev nD) : (dats m 0 c).share 2 = fullShare.right := rfl
theorem share_rest (c : Dev nD) (w : Fin cfg0.W) (h1 : w ≠ 1) (h2 : w ≠ 2) : (dats m 0 c).share w = fullShare := by
  match w, h1, h2 with
  | ⟨0, _⟩, _, _ => rfl
  | ⟨1, _⟩, h1, _ => exact absurd rfl h1
  | ⟨2, _⟩, _, h2 => exact absurd rfl h2
  | ⟨3, _⟩, _, _ => rfl
  | ⟨4, _⟩, _, _ => rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame_pair_rest cfgs (dats m) (0 : Fin 1) defs₀ Variants.none cellOf_inj winFacts₀0 block_pos0 arr_whole0 stage_whole0
    m ρ main (fun c => (body_obligation m c).loose) (fun _ _ => rfl)
    (1 : Fin 5) (2 : Fin 5) (by decide) arr_shared arr_injOn (share_1 m) (share_2 m) (share_rest m)
    (V m) (hmain m Variants.none) (A_eq m) (fun _ _ => rfl)

/-- The three arguments end as launched: the adjacency matrix and the feature matrix are staged by input windows and
    never written back, the weight matrix is no window's array and bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩) (run_main m ρ)

end Cert.KernelIdeal.Region

end
-- ==== Proof.LibPlainDot.lean ====
/-
  A plain matrix product read at an entry.

  For dimension numbers of the plain form — operands `[a, K]` and `[K, b]`, result `[a, b]`, the left operand's axis 1
  contracted with the right operand's axis 0, no batch axis — the left operand's index at result entry `(p, q)` and
  contraction position `k` is `(p, k)` and the right operand's is `(k, q)`.  On the extended reals both the vector unit's
  `tpu.matmul` into a zero accumulator and the host's `dot_general` are then the plain sum
  `Σ_k x(p, k) · w(k, q)` over `k : Fin K`.  Stated from hypotheses on the six dimension lists, so that it applies to any
  printed record of this form, whatever the extents.
-/
import Idealize.ShloMosaic.Lib.ValueIdx
import Idealize.ShloMosaic.PureOps.Ideal.Laws

noncomputable section

namespace Cert.Lib.PlainDot

open Idealize.ShloMosaic Idealize.ShloMosaic.ValueIdx

variable {a K b : Nat} (d : DotDims ⟨2, ![a, K]⟩ ⟨2, ![K, b]⟩ ⟨2, ![a, b]⟩)

/-- The left operand's row coordinate is the result's row coordinate. -/
theorem lhsIdx_row (hlb : d.lhsBatch = []) (hln : d.lhsNonContracting = [0])
    (j : (⟨2, ![a, b]⟩ : Shape).Idx) (k : d.contr.Idx) : (d.lhsIdx j k 0).val = (j 0).val := by
  unfold DotDims.lhsIdx
  have hb : (0 : Fin 2) ∉ d.lhsBatch := by rw [hlb]; exact List.not_mem_nil
  have hn : (0 : Fin 2) ∈ d.lhsNonContracting := by rw [hln]; exact List.mem_singleton.mpr rfl
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column coordinate. -/
theorem rhsIdx_col (hlb : d.lhsBatch = []) (hln : d.lhsNonContracting = [0]) (hrb : d.rhsBatch = [])
    (hrn : d.rhsNonContracting = [1])
    (j : (⟨2, ![a, b]⟩ : Shape).Idx) (k : d.contr.Idx) : (d.rhsIdx j k 1).val = (j 1).val := by
  unfold DotDims.rhsIdx
  have hb : (1 : Fin 2) ∉ d.rhsBatch := by rw [hrb]; exact List.not_mem_nil
  have hn : (1 : Fin 2) ∈ d.rhsNonContracting := by rw [hrn]; exact List.mem_singleton.mpr rfl
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

variable (hlb : d.lhsBatch = []) (hln : d.lhsNonContracting = [0]) (hlc : d.lhsContracting = [1])
  (hrb : d.rhsBatch = []) (hrn : d.rhsNonContracting = [1]) (hrc : d.rhsContracting = [0])
  (hr : d.contr.rank = 1) (hs : d.contr.size ⟨0, by omega⟩ = K)

include hlb hln hlc in
/-- The left operand is read at `(p, k)`. -/
theorem lhsIdx_plain (p : Fin a) (q : Fin b) (k : Fin K) :
    d.lhsIdx (ix2 p q) ((contrEquiv1 d K hr hs).symm k) = ix2 p k := by
  funext ax
  refine Fin.ext ?_
  match ax with
  | ⟨0, _⟩ => exact lhsIdx_row d hlb hln (ix2 p q) _
  | ⟨1, _⟩ =>
    show (d.lhsIdx (ix2 p q) ((contrEquiv1 d K hr hs).symm k) 1).val = k.val
    rw [DotDims.lhsIdx_val_of_single d hlc]
    exact contrEquiv1_symm_val d K hr hs k

include hlb hln hrb hrn hrc in
/-- The right operand is read at `(k, q)`. -/
theorem rhsIdx_plain (p : Fin a) (q : Fin b) (k : Fin K) :
    d.rhsIdx (ix2 p q) ((contrEquiv1 d K hr hs).symm k) = ix2 k q := by
  funext ax
  refine Fin.ext ?_
  match ax with
  | ⟨0, _⟩ =>
    show (d.rhsIdx (ix2 p q) ((contrEquiv1 d K hr hs).symm k) 0).val = k.val
    rw [DotDims.rhsIdx_val_of_single d hrc]
    exact contrEquiv1_symm_val d K hr hs k
  | ⟨1, _⟩ => exact rhsIdx_col d hlb hln hrb hrn (ix2 p q) _

include hlb hln hlc hrb hrn hrc hr hs in
/-- The vector unit's product into a zero accumulator, at `(p, q)`, is `Σ_k x(p, k) · w(k, q)`. -/
theorem matmul_zero_apply {φ₁ φ₂ : FTy} (prec : Option ContractPrecision)
    (x : FVec Ideal ⟨2, ![a, K]⟩ φ₁) (w : FVec Ideal ⟨2, ![K, b]⟩ φ₂) (p : Fin a) (q : Fin b) :
    (matmul (F := Ideal) d prec x w (constant ⟨2, ![a, b]⟩ .f32 0x00000000#32) (ix2 p q) : EReal)
      = ∑ k : Fin K, (x (ix2 p k) : EReal) * w (ix2 k q) := by
  show FloatOps.matmul d prec x w (constant ⟨2, ![a, b]⟩ .f32 0x00000000#32) (ix2 p q) = _
  rw [Ideal.matmul_constant_zero_apply, ← Equiv.sum_comp (contrEquiv1 d K hr hs).symm]
  exact Finset.sum_congr rfl fun k _ => by
    rw [lhsIdx_plain d hlb hln hlc hr hs, rhsIdx_plain d hlb hln hrb hrn hrc hr hs]

include hlb hln hlc hrb hrn hrc hr hs in
/-- The host's product, at `(p, q)`, is `Σ_k x(p, k) · w(k, q)`. -/
theorem dotGeneral_apply {φ₁ φ₂ : FTy} (prec : Option ContractPrecision)
    (x : FVec Ideal ⟨2, ![a, K]⟩ φ₁) (w : FVec Ideal ⟨2, ![K, b]⟩ φ₂) (p : Fin a) (q : Fin b) :
    (Host.dotGeneral (F := Ideal) d prec x w (ix2 p q) : EReal)
      = ∑ k : Fin K, (x (ix2 p k) : EReal) * w (ix2 k q) := by
  show FloatOps.dotGeneral d prec .single x w (ix2 p q) = _
  rw [Ideal.dotGeneral_apply, ← Equiv.sum_comp (contrEquiv1 d K hr hs).symm]
  exact Finset.sum_congr rfl fun k _ => by
    rw [lhsIdx_plain d hlb hln hlc hr hs, rhsIdx_plain d hlb hln hrb hrn hrc hr hs]

end Cert.Lib.PlainDot

end
-- ==== Proof.LibColumnLayout.lean ====
/-
  Two layout operations read at an index given by coordinates: the column forms a `keepdims` row reduction meets.
  A vector of `a` row values becomes an `[a, 1]` column by a shape cast, and that column is repeated along a new
  second axis of extent `b` by a broadcast; read at `(i, j)` the result is the vector's value at `i`, whatever `j`.
  General in the extents; stated over indices built from coordinates so that they apply by unification.
-/
import Idealize.ShloMosaic.Lib.ValueLayout

namespace Cert.Lib.ColumnLayout

open Idealize.ShloMosaic Idealize.ShloMosaic.ValueIdx

variable {α : Type}

/-- An `[a]` array cast to the column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the unit axis is read at `0`,
    the row axis at `p` (when `a` is itself `1` the row coordinate is `0` either way). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnLayout
-- ==== Proof.LibReduceLayout.lean ====
/-
  Sums and one more column form, read at an index given by coordinates, over the extended reals.
    * a sum along the second axis of an `[a, n]` array, read at row `p`, is the sum over `k` of the entries `(p, k)`;
    * a sum along the first axis of a column `[a, 1]`, read at its one index, is the sum over `p` of the entries `(p, 0)`;
    * a column `[a, 1]` transposed to the row `[1, a]` and repeated along a new first axis of extent `b` reads, at
      `(p, q)`, the column's entry in row `q`.
  General in the extents; stated over indices built from coordinates so that they apply by unification.  The proofs of
  the reductions' side conditions are variables, so that whatever proof a program's text carries unifies with them.
-/
import Idealize.ShloMosaic.Lib.ValueLayout
import Idealize.ShloMosaic.PureOps.Ideal.Laws

namespace Cert.Lib.ReduceLayout

open Idealize.ShloMosaic Idealize.ShloMosaic.ValueIdx

/-- A sum along the second axis, read at row `p`. -/
theorem sum_axis1_apply {a n : ℕ} (v : FVec Ideal ⟨2, ![a, n]⟩ .f32) (acc : BitVec 32)
    (h : (⟨2, ![a, n]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin n, v (ix2 p k) := by
  refine (Ideal.multiReduction_add_single v acc h hφ hacc (ix1 p)).trans ?_
  refine Finset.sum_congr rfl fun k _ => congrArg v (funext fun d => ?_)
  match d with
  | ⟨0, _⟩ => rfl
  | ⟨1, _⟩ => rfl

/-- A sum along the first axis of a column, read at its one index. -/
theorem sum_axis0_col_apply {a : ℕ} (v : FVec Ideal ⟨2, ![a, 1]⟩ .f32) (acc : BitVec 32)
    (h : (⟨2, ![a, 1]⟩ : Shape).Reduces [0] ⟨1, ![1]⟩) (hφ : FKind.Formats .f32) (hacc : acc = FKind.add.neutral .f32 hφ)
    (y : (⟨1, ![1]⟩ : Shape).Idx) :
    multiReduction .add [0] ⟨1, ![1]⟩ v acc h hφ hacc y = ∑ p : Fin a, v (ix2 p (0 : Fin 1)) := by
  refine (Ideal.multiReduction_add_single v acc h hφ hacc y).trans ?_
  refine Finset.sum_congr rfl fun p _ => congrArg v (funext fun d => ?_)
  match d with
  | ⟨0, _⟩ => rfl
  | ⟨1, _⟩ =>
    have h1 : (h.lift y p (1 : Fin 2)).val < 1 := (h.lift y p (1 : Fin 2)).isLt
    exact Fin.ext (by show (h.lift y p (1 : Fin 2)).val = 0; omega)

variable {α : Type}

/-- A column turned into a row and repeated over `b` rows reads, at `(p, q)`, the column's entry in row `q`. -/
theorem broadcastTo_transpose_col_apply {a b : ℕ} (v : (⟨2, ![a, 1]⟩ : Shape).Idx → α)
    (ht : (⟨2, ![a, 1]⟩ : Shape).Transposes [1, 0] ⟨2, ![1, a]⟩) (hb : (⟨2, ![1, a]⟩ : Shape).Broadcasts ⟨2, ![b, a]⟩)
    (p : Fin b) (q : Fin a) :
    broadcastTo ⟨2, ![b, a]⟩ (transpose ⟨2, ![1, a]⟩ [1, 0] v ht) hb (ix2 p q) = v (ix2 q (0 : Fin 1)) :=
  (broadcastTo_1b_ab_apply _ hb p q).trans (transpose_ix2_apply v ht (0 : Fin 1) q)

end Cert.Lib.ReduceLayout
-- ==== Proof.KernelEntry.lean ====
/-
  The value the kernel body stores, read at one entry of the 400 by 128 result block.

  From the loaded values — a (the block of 400 rows of the adjacency matrix), f (the whole feature matrix), b (the
  block of 400 feature rows), u and l (the upper and the lower 128 rows of the transposed weight matrix) — the stored
  value at (p, q) is

      Σ_k b(p, k) · u(k, q)  +  Σ_k ((Σ_j a(p, j) · f(j, k)) / ((Σ_j a(p, j)) + 1)) · l(k, q):

  each matrix product into a zero accumulator is a plain sum, the lane sum of a row of a is a plain sum, the column of
  row sums is read at its row whatever the channel, and casting a 128 by 128 block to its own shape changes nothing.
-/
import proofs.«162890_g154618823108_cont_week2b_1163_5_alg».proof.Proof.Gen.KernelIdeal.Skeleton
import proofs.«162890_g154618823108_cont_week2b_1163_5_alg».proof.Proof.LibPlainDot
import proofs.«162890_g154618823108_cont_week2b_1163_5_alg».proof.Proof.LibColumnLayout
import proofs.«162890_g154618823108_cont_week2b_1163_5_alg».proof.Proof.LibReduceLayout
import Idealize.ShloMosaic.Lib.Pipeline.Value
import Idealize.ShloMosaic.Lib.ValueLayout

noncomputable section

namespace Cert.KernelIdeal.Entry

open Cert.KernelIdeal Cert.KernelIdeal.Gen Cert.Lib
open Idealize.ShloMosaic Idealize.ShloMosaic.ValueIdx

/-- The aggregated feature the body forms for row p of its block, in channel k. -/
theorem aggregated_apply (a : FVec Ideal S400x10000 .f32) (f : FVec Ideal S10000x128 .f32) (p : Fin 400) (k : Fin 128) :
    divf (matmul (F := Ideal) dot_S400x10000_S10000x128_S400x128_1_0_0_1_n_n none a f (constant S400x128 .f32 0x00000000#32))
        (broadcastTo S400x128
          (addf (shapeCast S400x1 (multiReduction (F := Ideal) .add [1] S400 a 0x00000000#32 reduces_S400x10000_S400 (.inl rfl) rfl) shapeCasts_S400_S400x1)
            (broadcast S400x1 (Scalar.ofBits (F := Ideal) .f32 0x3F800000#32)))
          broadcasts_S400x1_S400x128) (ix2 p k)
      = Ideal.div (∑ j : Fin 10000, a (ix2 p j) * f (ix2 j k))
          ((∑ j : Fin 10000, a (ix2 p j)) + Ideal.ofBits .f32 0x3F800000#32) := by
  rw [divf_apply, PlainDot.matmul_zero_apply dot_S400x10000_S10000x128_S400x128_1_0_0_1_n_n rfl rfl rfl rfl rfl rfl rfl rfl,
    ColumnLayout.broadcastTo_a1_ab_apply, addf_apply, ColumnLayout.shapeCast_a_a1_apply]
  refine congrArg₂ Ideal.div rfl (congrArg₂ (· + ·) ?_ rfl)
  exact ReduceLayout.sum_axis1_apply a 0x00000000#32 reduces_S400x10000_S400 _ _ p

/-- The stored value at row p and column q of the block. -/
theorem payload_apply (a : FVec Ideal S400x10000 .f32) (f : FVec Ideal S10000x128 .f32) (b : FVec Ideal S400x128 .f32)
    (u l : FVec Ideal S128x128 .f32) (p : Fin 400) (q : Fin 128) :
    k0_pay1 (F := Ideal) a f b u l (ix2 p q)
      = (∑ k : Fin 128, b (ix2 p k) * u (ix2 k q))
        + ∑ k : Fin 128, Ideal.div (∑ j : Fin 10000, a (ix2 p j) * f (ix2 j k))
            ((∑ j : Fin 10000, a (ix2 p j)) + Ideal.ofBits .f32 0x3F800000#32) * l (ix2 k q) := by
  unfold k0_pay1
  dsimp only
  rw [addf_apply,
    PlainDot.matmul_zero_apply dot_S400x128_S128x128_S400x128_1_0_0_1_n_n rfl rfl rfl rfl rfl rfl rfl rfl,
    PlainDot.matmul_zero_apply dot_S400x128_S128x128_S400x128_1_0_0_1_n_n rfl rfl rfl rfl rfl rfl rfl rfl,
    shapeCast_self, shapeCast_self]
  refine congrArg₂ (· + ·) rfl (Finset.sum_congr rfl fun k _ => ?_)
  rw [aggregated_apply]

end Cert.KernelIdeal.Entry

end
-- ==== Proof.LayerSpec.lean ====
/-
  The layer both programs compute, entry by entry, on the extended reals.

  With A the adjacency matrix [10000, 10000], X the feature matrix [10000, 128] and W the weight matrix [128, 256]:
  the aggregated neighbour feature of node p in channel k is

      N(p, k) = (Σ_j A(p, j) · X(j, k)) / ((Σ_j A(p, j)) + 1),

  and the layer's output at (p, q) is the product of the concatenated row [X(p, ·), N(p, ·)] of length 256 with row q
  of W. Written as the kernel computes it, that is the sum of two sums of length 128: the node's own features against
  the first 128 columns of W, and the aggregated features against the last 128. The one law joining the two
  spellings is that a sum over 256 positions is the sum over the first 128 plus the sum over the last 128, which
  holds in any commutative additive monoid, so also where some terms are infinite.
-/
import Idealize.ShloMosaic.PureOps.Ideal
import Idealize.ShloMosaic.Lib.ValueIdx
import Mathlib.Algebra.BigOperators.Fin

noncomputable section

namespace Cert.Layer

open Idealize.ShloMosaic Idealize.ShloMosaic.ValueIdx

/-- Position k of the first half of a row of length 256. -/
abbrev lo (k : Fin 128) : Fin 256 := ⟨k.val, by have := k.isLt; omega⟩
/-- Position k of the second half of a row of length 256. -/
abbrev hi (k : Fin 128) : Fin 256 := ⟨128 + k.val, by have := k.isLt; omega⟩

/-- A sum over 256 positions is the sum over the first 128 plus the sum over the last 128. -/
theorem sum_halves {M : Type*} [AddCommMonoid M] (f : Fin 256 → M) :
    ∑ k : Fin 256, f k = ∑ k : Fin 128, f (lo k) + ∑ k : Fin 128, f (hi k) := by
  have h := Fin.sum_univ_add (a := 128) (b := 128) (show Fin (128 + 128) → M from f)
  refine h.trans ?_
  congr 1

/-- The aggregated neighbour feature of node p in channel k: the p-th row of A·X over one plus the p-th row sum of A. -/
def neigh (adj : (⟨2, ![10000, 10000]⟩ : Shape).Idx → EReal) (feat : (⟨2, ![10000, 128]⟩ : Shape).Idx → EReal)
    (p : Fin 10000) (k : Fin 128) : EReal :=
  Ideal.div (∑ j : Fin 10000, adj (ix2 p j) * feat (ix2 j k))
    ((∑ j : Fin 10000, adj (ix2 p j)) + Ideal.ofBits .f32 0x3F800000#32)

/-- The layer's output at row p and column q, as two sums of length 128. -/
def entry (adj : (⟨2, ![10000, 10000]⟩ : Shape).Idx → EReal) (feat : (⟨2, ![10000, 128]⟩ : Shape).Idx → EReal)
    (w : (⟨2, ![128, 256]⟩ : Shape).Idx → EReal) (p : Fin 10000) (q : Fin 128) : EReal :=
  (∑ k : Fin 128, feat (ix2 p k) * w (ix2 q (lo k))) + ∑ k : Fin 128, neigh adj feat p k * w (ix2 q (hi k))

/-- The layer's output array. -/
def layer (adj : (⟨2, ![10000, 10000]⟩ : Shape).Idx → EReal) (feat : (⟨2, ![10000, 128]⟩ : Shape).Idx → EReal)
    (w : (⟨2, ![128, 256]⟩ : Shape).Idx → EReal) : (⟨2, ![10000, 128]⟩ : Shape).Idx → EReal :=
  fun i => entry adj feat w (i 0) (i 1)

theorem layer_apply (adj : (⟨2, ![10000, 10000]⟩ : Shape).Idx → EReal) (feat : (⟨2, ![10000, 128]⟩ : Shape).Idx → EReal)
    (w : (⟨2, ![128, 256]⟩ : Shape).Idx → EReal) (p : Fin 10000) (q : Fin 128) :
    layer adj feat w (ix2 p q) = entry adj feat w p q := rfl

end Cert.Layer

end
-- ==== Proof.KernelValue.lean ====
/-
  What the kernel's result array holds after the run: the layer of the three arguments.

  Grid point t handles rows 400·t … 400·t + 399. There the adjacency window holds those rows of A, the first feature
  window all of X, the second feature window those rows of X, the weight window all of the transposed weight matrix
  (which the host operation before the call wrote: its entry (r, q) is W(q, r)), and the body's stored value at (p, q)
  is the layer's entry at (400·t + p, q). The 25 result blocks tile the result array, so the array ends holding the
  layer everywhere.
-/
import proofs.«162890_g154618823108_cont_week2b_1163_5_alg».proof.Proof.KernelIdealFrame
import proofs.«162890_g154618823108_cont_week2b_1163_5_alg».proof.Proof.KernelEntry
import proofs.«162890_g154618823108_cont_week2b_1163_5_alg».proof.Proof.LayerSpec
import Idealize.ShloMosaic.Lib.Pipeline.Value
import Idealize.ShloMosaic.Lib.StableHlo.Run

set_option maxRecDepth 16384

noncomputable section

namespace Cert.KernelIdeal.Whole

open Cert.KernelIdeal Cert.KernelIdeal.Gen Cert.KernelIdeal.Region Cert.KernelIdeal.Entry Cert.Layer
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-! ## The transposed weight matrix, as the region finds it -/

theorem V_main_v0 (c : Dev nD) :
    (V m c main_v0 : S256x128.Idx → EReal)
      = transpose S256x128 [1, 0] (m ((c : Thread nD τ).loc main_arg2)) transposes_S128x256_S256x128_1_0 := by
  dsimp only [V, hostOps0]; after_results <;> rfl

/-- Its entry (r, q) is the weight matrix's entry (q, r). -/
theorem weightT_apply (c : Dev nD) (r : Fin 256) (q : Fin 128) :
    V m c main_v0 (ix2 r q) = m ((c : Thread nD τ).loc main_arg2) (ix2 q r) :=
  (congrFun (V_main_v0 m c) (ix2 r q)).trans
    (transpose_apply [1, 0] _ transposes_S128x256_S256x128_1_0 (ix2 r q) (ix2 q r) (fun b => match b with
      | ⟨0, _⟩ => rfl
      | ⟨1, _⟩ => rfl))

/-! ## The two half-loads of the weight block -/

theorem ld_upper (x3 : Vec Ideal S256x128 .f32) (k q : Fin 128) :
    View.ld (Val := Elt Ideal) (e' := .f32) x3 rUpper (ix2 k q) = x3 (ix2 (lo k) q) :=
  congrArg x3 (funext fun a => Fin.ext (by
    match a with
    | ⟨0, _⟩ => show 0 + 1 * k.val = k.val; omega
    | ⟨1, _⟩ => show 0 + 1 * q.val = q.val; omega))

theorem ld_lower (x3 : Vec Ideal S256x128 .f32) (k q : Fin 128) :
    View.ld (Val := Elt Ideal) (e' := .f32) x3 rLower (ix2 k q) = x3 (ix2 (hi k) q) :=
  congrArg x3 (funext fun a => Fin.ext (by
    match a with
    | ⟨0, _⟩ => show 128 + 1 * k.val = 128 + k.val; omega
    | ⟨1, _⟩ => show 0 + 1 * q.val = q.val; omega))

/-! ## One entry of one block -/

/-- If the four buffers hold, around row p of the block, what row r of the arrays holds — the adjacency buffer row r of A,
    the first feature buffer all of X, the second feature buffer row r of X, the weight buffer the transposed W — then
    the stored value at (p, q) is the layer's entry at (r, q). -/
theorem block_entry (x0 : Vec Ideal S400x10000 .f32) (x1 : Vec Ideal S10000x128 .f32) (x2 : Vec Ideal S400x128 .f32)
    (x3 : Vec Ideal S256x128 .f32)
    (A : S10000x10000.Idx → EReal) (X : S10000x128.Idx → EReal) (W : S128x256.Idx → EReal)
    (p : Fin 400) (q : Fin 128) (r : Fin 10000)
    (h0 : ∀ j : Fin 10000, x0 (ix2 p j) = A (ix2 r j))
    (h1 : ∀ (j : Fin 10000) (k : Fin 128), x1 (ix2 j k) = X (ix2 j k))
    (h2 : ∀ k : Fin 128, x2 (ix2 p k) = X (ix2 r k))
    (h3 : ∀ (k : Fin 256) (q : Fin 128), x3 (ix2 k q) = W (ix2 q k)) :
    k0_pay1 (F := Ideal) (View.ld x0 rAdj) (View.ld x1 rFeat) (View.ld x2 rRows) (View.ld x3 rUpper) (View.ld x3 rLower) (ix2 p q)
      = entry A X W r q := by
  rw [View.ld_unit_zero (S := S400x10000) zeros, View.ld_unit_zero (S := S10000x128) zeros, View.ld_unit_zero (S := S400x128) zeros]
  rw [payload_apply]
  unfold entry neigh
  refine congrArg₂ (· + ·) (Finset.sum_congr rfl fun k _ => ?_) (Finset.sum_congr rfl fun k _ => ?_)
  · rw [h2, ld_upper, h3]
  · rw [ld_lower, h3]
    simp only [h0, h1]

/-! ## The index maps over the grid -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## What a point writes back -/

theorem flushed_eq (c : Dev nD) (t : Fin cfg0.N) :
    (dats m 0 c).flushed 4 t = ((cfg0.win 4).blk t).view.read (Elt Ideal)
      (layer (V m c main_arg0) (V m c main_arg1) (m ((c : Thread nD τ).loc main_arg2))) := by
  show (cfg0.win 4).cut (grid0.coords t) ((dats m 0 c).after 4 t) = _
  rw [after_4]
  unfold out4
  rw [View.canon_unit_zero zeros]
  obtain ⟨e00, e01, e10, e11, e20, e21, e30, e31, e40, e41⟩ := idx_facts t
  have hN : cfg0.N = 25 := N_0
  have ht : t.val < 25 := hN ▸ t.isLt
  funext j
  obtain ⟨p, q, rfl⟩ : ∃ (p : Fin 400) (q : Fin 128), j = ix2 p q := ⟨j 0, j 1, eq_ix2 j⟩
  have hp : p.val < 400 := p.isLt
  have hr : t.val * 400 + p.val < 10000 := by omega
  have hemb : ((cfg0.win 4).blk t).view.emb (ix2 p q) = ix2 (⟨t.val * 400 + p.val, hr⟩ : Fin 10000) q := by
    funext a; apply Fin.ext
    match a with
    | ⟨0, _⟩ => show win0_4.index t (0 : Fin 2) * 400 + 1 * p.val = t.val * 400 + p.val; omega
    | ⟨1, _⟩ => show win0_4.index t (1 : Fin 2) * 128 + 1 * q.val = q.val; omega
  refine (block_entry (iblk m c 0 t) (iblk m c 1 t) (iblk m c 2 t) (iblk m c 3 t)
    (V m c main_arg0) (V m c main_arg1) (m ((c : Thread nD τ).loc main_arg2)) p q ⟨t.val * 400 + p.val, hr⟩ ?_ ?_ ?_ ?_).trans ?_
  · intro j
    show V m c main_arg0 (((cfg0.win 0).blk t).view.emb (ix2 p j)) = V m c main_arg0 (ix2 (⟨t.val * 400 + p.val, hr⟩ : Fin 10000) j)
    refine congrArg _ (funext fun a => Fin.ext ?_)
    match a with
    | ⟨0, _⟩ => show win0_0.index t (0 : Fin 2) * 400 + 1 * p.val = t.val * 400 + p.val; omega
    | ⟨1, _⟩ => show win0_0.index t (1 : Fin 2) * 10000 + 1 * j.val = j.val; omega
  · intro j k
    show V m c main_arg1 (((cfg0.win 1).blk t).view.emb (ix2 j k)) = V m c main_arg1 (ix2 j k)
    refine congrArg _ (funext fun a => Fin.ext ?_)
    match a with
    | ⟨0, _⟩ => show win0_1.index t (0 : Fin 2) * 10000 + 1 * j.val = j.val; omega
    | ⟨1, _⟩ => show win0_1.index t (1 : Fin 2) * 128 + 1 * k.val = k.val; omega
  · intro k
    show V m c main_arg1 (((cfg0.win 2).blk t).view.emb (ix2 p k)) = V m c main_arg1 (ix2 (⟨t.val * 400 + p.val, hr⟩ : Fin 10000) k)
    refine congrArg _ (funext fun a => Fin.ext ?_)
    match a with
    | ⟨0, _⟩ => show win0_2.index t (0 : Fin 2) * 400 + 1 * p.val = t.val * 400 + p.val; omega
    | ⟨1, _⟩ => show win0_2.index t (1 : Fin 2) * 128 + 1 * k.val = k.val; omega
  · intro k q'
    show V m c main_v0 (((cfg0.win 3).blk t).view.emb (ix2 k q')) = m ((c : Thread nD τ).loc main_arg2) (ix2 q' k)
    refine (congrArg (V m c main_v0) (funext fun a => Fin.ext ?_)).trans (weightT_apply m c k q')
    match a with
    | ⟨0, _⟩ => show win0_3.index t (0 : Fin 2) * 256 + 1 * k.val = k.val; omega
    | ⟨1, _⟩ => show win0_3.index t (1 : Fin 2) * 128 + 1 * q'.val = q'.val; omega
  · show entry _ _ _ _ q = layer (V m c main_arg0) (V m c main_arg1) (m ((c : Thread nD τ).loc main_arg2)) (((cfg0.win 4).blk t).view.emb (ix2 p q))
    rw [hemb]
    rfl

/-! ## The blocks tile the array -/

theorem mem_blk (t : Fin cfg0.N) (i : S10000x128.Idx) :
    i ∈ ((cfg0.win 4).blk t).view.set ↔ ∀ a : Fin 2, win0_4.index t a * S400x128.size a ≤ (i a).val
      ∧ (i a).val < win0_4.index t a * S400x128.size a + S400x128.size a := by
  show i ∈ ((View.whole main_v1).slice (win0_4.rect t)).set ↔ _
  rw [View.set_slice_whole, Rect.mem_set_unit]
  exact Iff.rfl

theorem cover (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 25 := N_0
  have hlt : (i 0).val / 400 < cfg0.N := by rw [hN]; omega
  obtain ⟨-, -, -, -, -, -, -, -, e40, e41⟩ := idx_facts ⟨(i 0).val / 400, hlt⟩
  refine ⟨⟨(i 0).val / 400, hlt⟩, flush0_4 _, ?_⟩
  rw [mem_blk]
  intro a
  match a with
  | ⟨0, _⟩ =>
    show win0_4.index ⟨(i 0).val / 400, hlt⟩ (0 : Fin 2) * 400 ≤ (i 0).val
      ∧ (i 0).val < win0_4.index ⟨(i 0).val / 400, hlt⟩ (0 : Fin 2) * 400 + 400
    rw [e40]
    show (i 0).val / 400 * 400 ≤ (i 0).val ∧ (i 0).val < (i 0).val / 400 * 400 + 400
    omega
  | ⟨1, _⟩ =>
    show win0_4.index ⟨(i 0).val / 400, hlt⟩ (1 : Fin 2) * 128 ≤ (i 1).val
      ∧ (i 1).val < win0_4.index ⟨(i 0).val / 400, hlt⟩ (1 : Fin 2) * 128 + 128
    rw [e41]
    omega

/-! ## The array after the run, and the run -/

theorem final (c : Dev nD) :
    (dats m 0 c).arrAt 4 cfg0.N
      = layer (m ((c : Thread nD τ).loc main_arg0)) (m ((c : Thread nD τ).loc main_arg1)) (m ((c : Thread nD τ).loc main_arg2)) := by
  rw [← V_main_arg0 m c, ← V_main_arg1 m c]
  exact (dats m 0 c).arrAt_eq_of_cover 4 _ (fun t _ => flushed_eq m c t) cover

/-- Every weakly fair execution of the kernel's program terminates with the result array at the layer of the arguments
    and the arguments as launched. -/
theorem run : θ_run defs (onTc (τ := τ) (main (F := Ideal))) ⟨m, fun _ => 0, ρ⟩ fun r => ∀ c : Dev nD,
      r.2.mem ((c.tc : Thread nD τ).loc main_v1)
        = layer (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 4).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩) (run_main m ρ)

end Cert.KernelIdeal.Whole

end
-- ==== Proof.RefRead.lean ====
/-
  What the reference computes, read entry by entry: its result array is the layer of its three arguments.

  The reference forms A·X, divides row p by one plus the p-th row sum of A, joins the feature matrix and this quotient
  side by side into a [10000, 256] array, and multiplies by the transposed weight matrix. At (p, q) the last product
  is a sum over 256 positions; its first 128 terms read the feature matrix, its last 128 the quotient, and the
  transposed weight at (k, q) is the weight at (q, k). Splitting the sum in its two halves gives the layer's entry.
-/
import proofs.«162890_g154618823108_cont_week2b_1163_5_alg».proof.Proof.Gen.ReferenceIdeal.Read
import proofs.«162890_g154618823108_cont_week2b_1163_5_alg».proof.Proof.LayerSpec
import Idealize.ShloMosaic.Lib.Pipeline.Value

noncomputable section

namespace Cert.ReferenceIdeal.Entry

open Cert.ReferenceIdeal Cert.ReferenceIdeal.Gen Cert.ReferenceIdeal.Read Cert.Layer
open Idealize.ShloMosaic Idealize.ShloMosaic.ValueIdx

variable (x0 : (⟨S10000x10000, .f32⟩ : BufTy).Contents (Elt Ideal)) (x1 : (⟨S10000x128, .f32⟩ : BufTy).Contents (Elt Ideal))
  (x2 : (⟨S128x256, .f32⟩ : BufTy).Contents (Elt Ideal))

/-- The quotient the reference forms, at row p and channel k, is the aggregated neighbour feature. -/
theorem aggregated_apply (p : Fin 10000) (k : Fin 128) :
    val_main_v6 (F := Ideal) x0 x1 (ix2 p k) = neigh x0 x1 p k := by
  have e0 : ∀ j : Fin 10000, lidx_main_v0 (ix2 p k) j = ix2 p j := fun j =>
    funext fun a => Fin.ext (by match a with | ⟨0, _⟩ => rfl | ⟨1, _⟩ => rfl)
  have e1 : ∀ j : Fin 10000, ridx_main_v0 (ix2 p k) j = ix2 j k := fun j =>
    funext fun a => Fin.ext (by match a with | ⟨0, _⟩ => rfl | ⟨1, _⟩ => rfl)
  have e2 : ∀ j : Fin 10000, idx_main_v1 (idx_main_v2 (idx_main_v5 (ix2 p k))) j = ix2 p j := fun j =>
    funext fun a => Fin.ext (by
      match a with
      | ⟨0, _⟩ => show p.val * 1 + 0 = p.val; omega
      | ⟨1, _⟩ => rfl)
  rw [val_main_v6_apply, val_main_v0_apply, val_main_v5_apply, val_main_v4_apply, val_main_v2_apply, val_main_v1_apply,
    val_main_v3_apply, val_main_cst_0_apply, val_main_cst_apply]
  simp only [e0, e1, e2, Ideal.hostDivf_def, Ideal.addf_def, Ideal.ofBits_def, Ideal.ofBits_zero_f32, zero_add]
  rfl

/-- The joined array at a position of its first half reads the feature matrix. -/
theorem joined_lo (p : Fin 10000) (q : Fin 128) (k : Fin 128) :
    val_main_v7 (F := Ideal) x0 x1 (lidx_main_v9 (ix2 p q) (lo k)) = x1 (ix2 p k) := by
  unfold val_main_v7
  refine concatenate_pair_apply_left (t := S10000x256) (s₁ := S10000x128) (s₂ := S10000x128) 1 x1 (val_main_v6 (F := Ideal) x0 x1)
    concatenates_S10000x128_S10000x128_S10000x256_d1 (lidx_main_v9 (ix2 p q) (lo k)) rfl (ix2 p k) (fun b => ?_)
  match b with
  | ⟨0, _⟩ => rfl
  | ⟨1, _⟩ => rfl

/-- The joined array at a position of its second half reads the quotient. -/
theorem joined_hi (p : Fin 10000) (q : Fin 128) (k : Fin 128) :
    val_main_v7 (F := Ideal) x0 x1 (lidx_main_v9 (ix2 p q) (hi k)) = val_main_v6 (F := Ideal) x0 x1 (ix2 p k) := by
  unfold val_main_v7
  refine concatenate_pair_apply_right (t := S10000x256) (s₁ := S10000x128) (s₂ := S10000x128) 1 x1 (val_main_v6 (F := Ideal) x0 x1)
    concatenates_S10000x128_S10000x128_S10000x256_d1 (lidx_main_v9 (ix2 p q) (hi k)) rfl rfl (ix2 p k) (fun b hb => ?_) ?_
  · match b, hb with
    | ⟨0, _⟩, _ => rfl
    | ⟨1, _⟩, hb => exact absurd rfl hb
  · show k.val + 128 = 128 + k.val
    omega

/-- The transposed weight matrix at (r, q) is the weight matrix at (q, r). -/
theorem transposed_apply (p : Fin 10000) (q : Fin 128) (r : Fin 256) :
    val_main_v8 (F := Ideal) x2 (ridx_main_v9 (ix2 p q) r) = x2 (ix2 q r) := by
  rw [val_main_v8_apply]
  exact congrArg x2 (funext fun a => Fin.ext (by match a with | ⟨0, _⟩ => rfl | ⟨1, _⟩ => rfl))

/-- The reference's result is the layer of its arguments. -/
theorem result_eq : val_main_v9 (F := Ideal) x0 x1 x2 = layer x0 x1 x2 := by
  funext i
  obtain ⟨p, q, rfl⟩ : ∃ (p : Fin 10000) (q : Fin 128), i = ix2 p q := ⟨i 0, i 1, eq_ix2 i⟩
  rw [val_main_v9_apply, sum_halves, layer_apply]
  unfold entry
  refine congrArg₂ (· + ·) (Finset.sum_congr rfl fun k _ => ?_) (Finset.sum_congr rfl fun k _ => ?_)
  · rw [joined_lo, transposed_apply]
  · rw [joined_hi, aggregated_apply, transposed_apply]

end Cert.ReferenceIdeal.Entry

end
-- ==== Proof.lean ====
/-
  The fused dense-adjacency layer against its reference: with A the adjacency matrix, X the feature matrix and W the
  weight matrix, both programs compute, at node p and output channel q,

      Σ_{k < 128} X(p, k) · W(q, k)  +  Σ_{k < 128} N(p, k) · W(q, 128 + k),
      N(p, k) = (Σ_j A(p, j) · X(j, k)) / ((Σ_j A(p, j)) + 1).

  The kernel works on blocks of 400 rows: for each block it multiplies the rows of A by X, divides by one plus the row
  sums, and adds the two products with the upper and the lower half of the transposed weight matrix. The reference
  joins X and N side by side and takes one product of length 256 with the transposed weight matrix. On the extended
  reals the two agree entry by entry: a matrix product into a zero accumulator and the host's product are the same
  plain sums, so are the lane sum and the host's sum from zero, the division is the same function, and a sum over 256
  positions is the sum of its two halves. No step needs the inputs to be finite.

  The frames: the kernel's program is one host operation (the transposition of W) and one region whose five windows
  are staged and written back by the pipeline; the feature matrix is read through two windows, which hold its full share
  in two halves. The body loads its buffers whole and stores one value covering the result buffer. The reference is a
  line of host operations. The ideal pass rewrote nothing, so the idealized kernel is the kernel's own text.
-/
import proofs.«162890_g154618823108_cont_week2b_1163_5_alg».proof.Defs
import proofs.«162890_g154618823108_cont_week2b_1163_5_alg».proof.Proof.Gen.Kernel
import proofs.«162890_g154618823108_cont_week2b_1163_5_alg».proof.Proof.Gen.KernelIdeal
import proofs.«162890_g154618823108_cont_week2b_1163_5_alg».proof.Proof.Gen.ReferenceIdeal
import proofs.«162890_g154618823108_cont_week2b_1163_5_alg».proof.Proof.Gen.Pre_finite_inputs
import proofs.«162890_g154618823108_cont_week2b_1163_5_alg».proof.Proof.Gen.ReferenceIdeal.Run
import proofs.«162890_g154618823108_cont_week2b_1163_5_alg».proof.Proof.KernelFrame
import proofs.«162890_g154618823108_cont_week2b_1163_5_alg».proof.Proof.KernelIdealFrame
import proofs.«162890_g154618823108_cont_week2b_1163_5_alg».proof.Proof.KernelValue
import proofs.«162890_g154618823108_cont_week2b_1163_5_alg».proof.Proof.RefRead
import Idealize.ShloMosaic.Adequacy
import Idealize.ShloMosaic.Init

noncomputable section

namespace Cert.Proof

open Idealize.ShloMosaic Idealize.ShloMosaic.TcCoe Idealize.SL.Sem

/-- The kernel's program, read at words, runs to the end and leaves its arguments as they were. -/
theorem frame_kernel : Cert.frame_Kernel := fun m ρ _ => Cert.Kernel.Region.frame m ρ

/-- The same program read on the extended reals. -/
theorem frame_kernelIdeal : Cert.frame_KernelIdeal := fun m ρ _ => Cert.KernelIdeal.Region.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the layer of the (agreeing) arguments in their result arrays. -/
theorem algebraic : Cert.algebraic_KernelIdeal_ReferenceIdeal := by
  intro m ρ m' ρ' _ hagree
  refine ⟨fun c => Cert.Layer.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.Entry.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
